-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 31
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S50000x1, .f32⟩
  | .hbm, ⟨29, _⟩ => ⟨S1x128, .f32⟩
  | .hbm, ⟨30, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageSpec.lean ====
/-
  One mean-aggregating graph-convolution layer, as ONE function of its arrays, entry by entry, on the extended reals.

  The arrays: `agg` (50000 × 128), the sum over each node's incoming edges of the source nodes' feature rows;
  `deg` (50000), the number of incoming edges of each node; `x` (50000 × 128), the nodes' own features; `wl`, `wr`
  (128 × 128), the two weight matrices; `b` (128), the bias.  Entry (r, j) of the layer is

      max ( ( Σ_k (agg[r,k] / max(deg[r], 1)) · wl[k,j]  +  Σ_k x[r,k] · wr[k,j] )  +  b[j] ,  0 ).

  How `agg` and `deg` come out of the edge list is not opened here: both programs compute them by the same
  operations, so they are carried as arrays.  The one algebraic fact the comparison needs is that the bias may be
  added before or after the second product: addition of extended reals is commutative and associative (also at
  the infinities), so no finiteness is asked of any array.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The floor put under a node's in-degree before dividing: the single-precision word of 1. -/
abbrev degFloor : EReal := Ideal.ofBits .f32 0x3F800000#32

/-- The rectifier's threshold: the single-precision word of 0. -/
abbrev reluFloor : EReal := Ideal.ofBits .f32 0x00000000#32

/-- Entry (r, k) of the neighbourhood mean: the aggregated feature divided by the in-degree, the in-degree
    raised to at least 1 so that a node with no incoming edge divides by 1. -/
def mean (agg : (⟨2, ![50000, 128]⟩ : Shape).Idx → EReal) (deg : (⟨1, ![50000]⟩ : Shape).Idx → EReal)
    (r : Fin 50000) (k : Fin 128) : EReal :=
  Ideal.div (agg (ix2 r k)) (max (deg (ix1 r)) degFloor)

/-- Entry (r, j) of the layer before it is spread over an index: the mean's row r against column j of `wl`, plus
    the node's own row r against column j of `wr`, plus the bias at j, rectified. -/
def entry (agg : (⟨2, ![50000, 128]⟩ : Shape).Idx → EReal) (deg : (⟨1, ![50000]⟩ : Shape).Idx → EReal)
    (x : (⟨2, ![50000, 128]⟩ : Shape).Idx → EReal) (wl wr : (⟨2, ![128, 128]⟩ : Shape).Idx → EReal)
    (b : (⟨1, ![128]⟩ : Shape).Idx → EReal) (r : Fin 50000) (j : Fin 128) : EReal :=
  max ((∑ k : Fin 128, mean agg deg r k * wl (ix2 k j) + ∑ k : Fin 128, x (ix2 r k) * wr (ix2 k j)) + b (ix1 j)) reluFloor

/-- The layer: the 50000 × 128 array of its entries. -/
def layer (agg : (⟨2, ![50000, 128]⟩ : Shape).Idx → EReal) (deg : (⟨1, ![50000]⟩ : Shape).Idx → EReal)
    (x : (⟨2, ![50000, 128]⟩ : Shape).Idx → EReal) (wl wr : (⟨2, ![128, 128]⟩ : Shape).Idx → EReal)
    (b : (⟨1, ![128]⟩ : Shape).Idx → EReal) : (⟨2, ![50000, 128]⟩ : Shape).Idx → EReal :=
  fun i => entry agg deg x wl wr b (i 0) (i 1)

theorem layer_apply (agg : (⟨2, ![50000, 128]⟩ : Shape).Idx → EReal) (deg : (⟨1, ![50000]⟩ : Shape).Idx → EReal)
    (x : (⟨2, ![50000, 128]⟩ : Shape).Idx → EReal) (wl wr : (⟨2, ![128, 128]⟩ : Shape).Idx → EReal)
    (b : (⟨1, ![128]⟩ : Shape).Idx → EReal) (r : Fin 50000) (j : Fin 128) :
    layer agg deg x wl wr b (ix2 r j) = entry agg deg x wl wr b r j := rfl

/-- The bias added before the second product or after it: the same extended real. -/
theorem bias_before_or_after (p q b : EReal) : (p + b) + q = (p + q) + b := add_right_comm p b q

end Cert.Sage

end
-- ==== Proof.SageReference.lean ====
/-
  The reference program's result, at the extended reals, is the layer of `SageSpec`, with `agg` and `deg` the two
  scatter-added arrays the reference builds from the edge list.

  Read entry by entry: the rectifier is `max · 0`; under it the reference adds (mean · wl + b) + x · wr, each
  product a sum over the 128 contracted positions; the mean's entry (r, k) is agg[r,k] / max(deg[r], 1), the
  in-degree first made a one-column matrix and then spread over the 128 columns, so that entry (r, k) of the
  divisor depends on r alone; the bias is made a one-row matrix and spread over the 50000 rows, so its entry
  (r, j) depends on j alone.  Moving the bias behind the second product gives the layer's own grouping.
-/
import proofs.«109929_j20418274525425_1_alg».proof.Proof.Gen.ReferenceIdeal.Read
import proofs.«109929_j20418274525425_1_alg».proof.Proof.SageSpec

noncomputable section

namespace Cert.Sage.Reference

open Cert.ReferenceIdeal Cert.ReferenceIdeal.Gen Cert.ReferenceIdeal.Read
open Idealize.ShloMosaic Idealize.ShloMosaic.ValueIdx

/-- The left operand of the first product at output (r, j), position k: row r, column k. -/
theorem lidx23 (r : Fin 50000) (j k : Fin 128) : lidx_main_v23 (ix2 r j) k = ix2 r k :=
  funext fun a => Fin.ext (by match a with | ⟨0, _⟩ => rfl | ⟨1, _⟩ => rfl)

/-- Its right operand: row k, column j. -/
theorem ridx23 (r : Fin 50000) (j k : Fin 128) : ridx_main_v23 (ix2 r j) k = ix2 k j :=
  funext fun a => Fin.ext (by match a with | ⟨0, _⟩ => rfl | ⟨1, _⟩ => rfl)

/-- The same two for the second product. -/
theorem lidx27 (r : Fin 50000) (j k : Fin 128) : lidx_main_v27 (ix2 r j) k = ix2 r k :=
  funext fun a => Fin.ext (by match a with | ⟨0, _⟩ => rfl | ⟨1, _⟩ => rfl)

theorem ridx27 (r : Fin 50000) (j k : Fin 128) : ridx_main_v27 (ix2 r j) k = ix2 k j :=
  funext fun a => Fin.ext (by match a with | ⟨0, _⟩ => rfl | ⟨1, _⟩ => rfl)

/-- The divisor at (r, k) reads the in-degree at r: through the spread over columns and the one-column cast. -/
theorem degIdx (r : Fin 50000) (k : Fin 128) : idx_main_v20 (idx_main_v21 (ix2 r k)) = ix1 r :=
  funext fun a => Fin.ext (by match a with | ⟨0, _⟩ => rfl)

/-- The bias at (r, j) reads the bias vector at j: through the spread over rows and the one-row cast. -/
theorem biasIdx (r : Fin 50000) (j : Fin 128) : idx_main_v24 (idx_main_v25 (ix2 r j)) = ix1 j :=
  funext fun a => Fin.ext (by match a with | ⟨0, _⟩ => rfl)

/-- The mean as the reference computes it, read at row r and contracted position k: the aggregated feature over the
    in-degree raised to at least 1.  The two scatter-added arrays are carried as they are, never opened. -/
theorem mean_read (x0 : (⟨S50000x128, .f32⟩ : BufTy).Contents (Elt Ideal)) (x1 : (⟨S2x800000, .i32⟩ : BufTy).Contents (Elt Ideal))
    (r : Fin 50000) (j k : Fin 128) :
    val_main_v22 (F := Ideal) x0 x1 (lidx_main_v23 (ix2 r j) k)
      = Cert.Sage.mean (val_main_v13 (F := Ideal) x0 x1) (val_main_v17 (F := Ideal) x1) r k := by
  rw [lidx23, val_main_v22_apply, val_main_v21_apply, val_main_v20_apply, val_main_v19_apply, val_main_v18_apply,
    val_main_cst_3_apply, degIdx]
  generalize val_main_v13 (F := Ideal) x0 x1 = A
  generalize val_main_v17 (F := Ideal) x1 = D
  unfold Cert.Sage.mean
  rw [Ideal.hostDivf_def, Ideal.maximumf_def, Ideal.ofBits_def]

/-- The reference's result is the layer of its own aggregated features and in-degrees. -/
theorem result_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4
      = Cert.Sage.layer (val_main_v13 (F := Ideal) x0 x1) (val_main_v17 (F := Ideal) x1) x0 x2 x3 x4 := by
  funext i
  obtain ⟨r, j, rfl⟩ : ∃ (r : Fin 50000) (j : Fin 128), i = ix2 r j := ⟨i 0, i 1, eq_ix2 i⟩
  rw [Cert.Sage.layer_apply, val_main_v29_apply, val_main_v28_apply, val_main_v26_apply, val_main_v23_apply,
    val_main_v27_apply, val_main_v25_apply, val_main_v24_apply, val_main_call0_v0_apply, val_main_call0_cst_apply, biasIdx]
  have e1 : ∑ k : Fin 128, val_main_v22 (F := Ideal) x0 x1 (lidx_main_v23 (ix2 r j) k) * x2 (ridx_main_v23 (ix2 r j) k)
      = ∑ k : Fin 128, Cert.Sage.mean (val_main_v13 (F := Ideal) x0 x1) (val_main_v17 (F := Ideal) x1) r k * x2 (ix2 k j) :=
    Finset.sum_congr rfl fun k _ => by rw [mean_read, ridx23]
  have e2 : ∑ k : Fin 128, x0 (lidx_main_v27 (ix2 r j) k) * x3 (ridx_main_v27 (ix2 r j) k)
      = ∑ k : Fin 128, x0 (ix2 r k) * x3 (ix2 k j) :=
    Finset.sum_congr rfl fun k _ => by rw [lidx27, ridx27]
  rw [e1, e2]
  generalize val_main_v13 (F := Ideal) x0 x1 = A
  generalize val_main_v17 (F := Ideal) x1 = D
  unfold Cert.Sage.entry
  rw [Ideal.maximumf_def, Ideal.addf_def, Ideal.addf_def, Ideal.ofBits_def, Cert.Sage.bias_before_or_after]

end Cert.Sage.Reference

end
-- ==== Proof.LibColumn.lean ====
/-
  Two layout operations read at an index given by coordinates: a vector made a one-column matrix, and a
  one-column matrix spread over the columns of a wider one.  Together they turn a per-row quantity (a scale,
  a mean, a variance) into a matrix that is constant along each row.
-/
import Idealize.ShloMosaic.Lib.ValueLayout

namespace Cert.Layer.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layer.Column
-- ==== Proof.SageBlock.lean ====
/-
  What the kernel's body stores, read at one entry of its block.

  At a grid point the body holds a block of 5000 rows of the aggregated features (`a`, 5000 × 128), the same rows
  of the in-degrees as a one-column matrix (`d`, 5000 × 1) and of the nodes' own features (`x`, 5000 × 128), the
  two whole weight matrices (`wl`, `wr`, 128 × 128) and the bias as a one-row matrix (`b`, 1 × 128).  It stores
  max((mean · wl + x · wr) + b, 0), where the mean's entry (p, k) is a[p,k] / max(d[p,0], 1): the in-degree
  column is spread over the 128 columns before the division, the bias row over the 5000 rows before the addition.
  The roundings to half precision on the way into the two products are the identity on the extended reals, and a
  product into a zero accumulator is the plain sum over the 128 contracted positions.  So entry (p, q) of the
  stored block is

      max ( ( Σ_k (a[p,k] / max(d[p,0], 1)) · wl[k,q]  +  Σ_k x[p,k] · wr[k,q] )  +  b[0,q] ,  0 ).
-/
import proofs.«109929_j20418274525425_1_alg».proof.Proof.Gen.KernelIdeal.Skeleton
import proofs.«109929_j20418274525425_1_alg».proof.Proof.LibColumn
import proofs.«109929_j20418274525425_1_alg».proof.Proof.SageSpec
import Idealize.ShloMosaic.Lib.ValueLayout
import Idealize.ShloMosaic.Lib.ValueIdx
import Idealize.ShloMosaic.Lib.Pipeline.Value
import Idealize.ShloMosaic.PureOps.Ideal.Laws

noncomputable section

namespace Cert.Sage.Block

open Cert.KernelIdeal Cert.KernelIdeal.Gen
open Idealize.ShloMosaic Idealize.ShloMosaic.ValueIdx

/-! ## A block's matrix product as a sum over the contracted position -/

/-- The left operand's row coordinate is the output's row. -/
theorem lhs_row (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column coordinate is the contracted position. -/
theorem lhs_col (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row coordinate is the contracted position. -/
theorem rhs_row (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c

/-- The right operand's column coordinate is the output's column. -/
theorem rhs_col (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000 × 128 block times a 128 × 128 matrix into a zero accumulator, at entry (p, q): the sum over the 128
    contracted positions k of left[p,k] · right[k,q]. -/
theorem product_apply {φ₁ φ₂ : FTy} (l : FVec Ideal S5000x128 φ₁) (w : FVec Ideal S128x128 φ₂) (p : Fin 5000) (q : Fin 128) :
    matmul dot_S5000x128_S128x128_S5000x128_1_0_0_1_n_n none l w (constant (F := Ideal) S5000x128 .f32 0x00000000#32) (ix2 p q)
      = ∑ k : Fin 128, l (ix2 p k) * w (ix2 k q) := by
  show FloatOps.matmul dot_S5000x128_S128x128_S5000x128_1_0_0_1_n_n none l w (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-! ## The stored block at an entry -/

/-- Entry (p, q) of what the body stores, from its six loaded blocks. -/
theorem stored_apply (d : Vec Ideal S5000x1 .f32) (a x : Vec Ideal S5000x128 .f32) (wl wr : Vec Ideal S128x128 .f32)
    (b : Vec Ideal S1x128 .f32) (p : Fin 5000) (q : Fin 128) :
    k0_pay1 (F := Ideal) d a x wl wr b (ix2 p q)
      = max ((∑ k : Fin 128, Ideal.div (a (ix2 p k)) (max (d (ix2 p (0 : Fin 1))) Cert.Sage.degFloor) * wl (ix2 k q)
              + ∑ k : Fin 128, x (ix2 p k) * wr (ix2 k q)) + b (ix2 (0 : Fin 1) q)) Cert.Sage.reluFloor := by
  unfold k0_pay1
  simp only [maximumf_apply, addf_apply, broadcast_apply, product_apply, truncf_apply, divf_apply, shapeCast_self,
    broadcastTo_1b_ab_apply, Cert.Layer.Column.broadcastTo_a1_ab_apply, Ideal.ofBits_def]

end Cert.Sage.Block

end
-- ==== Proof.SageKernel.lean ====
/-
  The kernel's result array is the layer of the arrays its windows are cut from.

  The grid has ten points.  At point t each of three inputs — the aggregated features, the in-degrees (one column)
  and the nodes' own features — contributes its rows 5000 t … 5000 t + 4999; the two weight matrices and the bias
  row are staged whole; the output block written back at t is rows 5000 t … 5000 t + 4999 of the result.  These
  placements are decided once over the ten points.

  A block's entry is then the array's entry at the block's offset plus the entry's own coordinates, whatever the
  array holds: the block reads are stated for an arbitrary array and only then used at the arrays the grid finds.
  With them, entry (p, q) of what point t stores is the layer at (5000 t + p, q): the body's stored block, read at
  an entry, is the layer's formula over rows p of its input blocks, and those are rows 5000 t + p of the arrays.

  Every row r of the result lies in exactly the block of point r / 5000, so the ten blocks cover the array, and
  the array after the run is the layer everywhere.
-/
import proofs.«109929_j20418274525425_1_alg».proof.Proof.Gen.KernelIdeal.Value
import proofs.«109929_j20418274525425_1_alg».proof.Proof.SageBlock
import proofs.«109929_j20418274525425_1_alg».proof.Proof.SageSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Sage.Kernel

open Cert.KernelIdeal Cert.KernelIdeal.Gen Cert.KernelIdeal.Value

variable (m : (ℓ : Loc nD τ sig) → Buf (Elt Ideal) ℓ) (ρ : Dev nD → PrngReg)

/-- The body's loads and its one store go through the whole block, from offset (0, 0). -/
theorem zeroOffsets : (![0, 0] : Fin 2 → Nat) = fun _ => 0 := funext fun a => by fin_cases a <;> rfl

/-- The in-degrees as the layer takes them: the entries of the one-column array the second window is cut from. -/
def degOf (c : Dev nD) : (⟨1, ![50000]⟩ : Shape).Idx → EReal := fun i => V m c main_v18 (ix2 (i 0) (0 : Fin 1))

/-- The bias as the layer takes it: the entries of the one-row array the bias window is cut from. -/
def biasOf (c : Dev nD) : (⟨1, ![128]⟩ : Shape).Idx → EReal := fun i => V m c main_v19 (ix2 (0 : Fin 1) (i 0))

/-- What the kernel's result array ends holding: the layer of the arrays its windows are cut from. -/
def result (c : Dev nD) : S50000x128.Idx → EReal :=
  Cert.Sage.layer (V m c main_v13) (degOf m c) (V m c main_arg0) (V m c main_arg2) (V m c main_arg3) (biasOf m c)

/-! ## Where each window's block sits at a grid point -/

/-- Over the ten grid points: the three row-blocked inputs and the output are at block row t, block column 0; the
    two weight matrices and the bias row stay at block (0, 0). -/
theorem index_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = 0 ∧ win0_5.index t (1 : Fin 2) = 0
  ∧ win0_6.index t (0 : Fin 2) = t.val ∧ win0_6.index t (1 : Fin 2) = 0 :=
  (by decide +kernel : ∀ t : Fin grid0.N, _)

/-! ## Reading a window's block off an array

  Each lemma is about an ARBITRARY array `G` of the window's shape: a block's entry is the array's entry at the
  block's offset plus the entry's own coordinates.  What the array holds plays no part. -/

/-- Window 0 (5000-row blocks of a 50000 × 128 array): entry (p, k) of block t is entry (5000 t + p, k). -/
theorem block0_read (G : (⟨S50000x128, .f32⟩ : BufTy).Contents (Elt Ideal)) (t : Fin cfg0.N) (p : Fin 5000) (k : Fin 128)
    (r : Fin 50000) (hr : r.val = t.val * 5000 + p.val) :
    ((cfg0.win 0).blk t).view.read (Elt Ideal) G (ix2 p k) = G (ix2 r k) := by
  obtain ⟨e0, e1, -⟩ := index_facts t
  show G (((cfg0.win 0).blk t).view.emb (ix2 p k)) = G (ix2 r k)
  refine congrArg G ?_
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Window 1 (5000-row blocks of a 50000 × 1 array): entry (p, 0) of block t is entry (5000 t + p, 0). -/
theorem block1_read (G : (⟨S50000x1, .f32⟩ : BufTy).Contents (Elt Ideal)) (t : Fin cfg0.N) (p : Fin 5000)
    (r : Fin 50000) (hr : r.val = t.val * 5000 + p.val) :
    ((cfg0.win 1).blk t).view.read (Elt Ideal) G (ix2 p (0 : Fin 1)) = G (ix2 r (0 : Fin 1)) := by
  obtain ⟨-, -, e0, e1, -⟩ := index_facts t
  show G (((cfg0.win 1).blk t).view.emb (ix2 p (0 : Fin 1))) = G (ix2 r (0 : Fin 1))
  refine congrArg G ?_
  funext a; apply Fin.ext
  match a with
  | ⟨0, _⟩ => show win0_1.index t (0 : Fin 2) * 5000 + 1 * p.val = r.val; rw [e0, hr]; omega
  | ⟨1, _⟩ => show win0_1.index t (1 : Fin 2) * 1 + 1 * 0 = 0; rw [e1]

/-- Window 2 (5000-row blocks of a 50000 × 128 array): as window 0. -/
theorem block2_read (G : (⟨S50000x128, .f32⟩ : BufTy).Contents (Elt Ideal)) (t : Fin cfg0.N) (p : Fin 5000) (k : Fin 128)
    (r : Fin 50000) (hr : r.val = t.val * 5000 + p.val) :
    ((cfg0.win 2).blk t).view.read (Elt Ideal) G (ix2 p k) = G (ix2 r k) := by
  obtain ⟨-, -, -, -, e0, e1, -⟩ := index_facts t
  show G (((cfg0.win 2).blk t).view.emb (ix2 p k)) = G (ix2 r k)
  refine congrArg G ?_
  funext a; apply Fin.ext
  match a with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- Window 3 (a 128 × 128 array staged whole): the block is the array. -/
theorem block3_read (G : (⟨S128x128, .f32⟩ : BufTy).Contents (Elt Ideal)) (t : Fin cfg0.N) (k q : Fin 128) :
    ((cfg0.win 3).blk t).view.read (Elt Ideal) G (ix2 k q) = G (ix2 k q) := by
  obtain ⟨-, -, -, -, -, -, e0, e1, -⟩ := index_facts t
  show G (((cfg0.win 3).blk t).view.emb (ix2 k q)) = G (ix2 k q)
  refine congrArg G ?_
  funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Window 4 (a 128 × 128 array staged whole): the block is the array. -/
theorem block4_read (G : (⟨S128x128, .f32⟩ : BufTy).Contents (Elt Ideal)) (t : Fin cfg0.N) (k q : Fin 128) :
    ((cfg0.win 4).blk t).view.read (Elt Ideal) G (ix2 k q) = G (ix2 k q) := by
  obtain ⟨-, -, -, -, -, -, -, -, e0, e1, -⟩ := index_facts t
  show G (((cfg0.win 4).blk t).view.emb (ix2 k q)) = G (ix2 k q)
  refine congrArg G ?_
  funext a; apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Window 5 (a 1 × 128 array staged whole): the block is the array. -/
theorem block5_read (G : (⟨S1x128, .f32⟩ : BufTy).Contents (Elt Ideal)) (t : Fin cfg0.N) (q : Fin 128) :
    ((cfg0.win 5).blk t).view.read (Elt Ideal) G (ix2 (0 : Fin 1) q) = G (ix2 (0 : Fin 1) q) := by
  obtain ⟨-, -, -, -, -, -, -, -, -, -, e0, e1, -⟩ := index_facts t
  show G (((cfg0.win 5).blk t).view.emb (ix2 (0 : Fin 1) q)) = G (ix2 (0 : Fin 1) q)
  refine congrArg G ?_
  funext a; apply Fin.ext
  match a with
  | ⟨0, _⟩ => show win0_5.index t (0 : Fin 2) * 1 + 1 * 0 = 0; rw [e0]
  | ⟨1, _⟩ => show win0_5.index t (1 : Fin 2) * 128 + 1 * q.val = q.val; rw [e1]; omega

/-- Window 6, the output (5000-row blocks of a 50000 × 128 array): entry (p, q) of block t is entry (5000 t + p, q). -/
theorem block6_read (G : (⟨S50000x128, .f32⟩ : BufTy).Contents (Elt Ideal)) (t : Fin cfg0.N) (p : Fin 5000) (q : Fin 128)
    (r : Fin 50000) (hr : r.val = t.val * 5000 + p.val) :
    ((cfg0.win 6).blk t).view.read (Elt Ideal) G (ix2 p q) = G (ix2 r q) := by
  have e6 := (index_facts t).2.2.2.2.2.2.2.2.2.2.2.2
  show G (((cfg0.win 6).blk t).view.emb (ix2 p q)) = G (ix2 r q)
  refine congrArg G ?_
  funext a; apply Fin.ext
  match a with
  | ⟨0, _⟩ => show win0_6.index t (0 : Fin 2) * 5000 + 1 * p.val = r.val; rw [e6.1, hr]; omega
  | ⟨1, _⟩ => show win0_6.index t (1 : Fin 2) * 128 + 1 * q.val = q.val; rw [e6.2]; omega

/-! ## The windows' blocks as the grid finds them

  A window's block at a point is read off the array the region finds; the lemmas above, at that array. -/

theorem read_agg (c : Dev nD) (t : Fin cfg0.N) (p : Fin 5000) (k : Fin 128) (r : Fin 50000) (hr : r.val = t.val * 5000 + p.val) :
    iblk m c 0 t (ix2 p k) = V m c main_v13 (ix2 r k) := by
  unfold iblk
  exact block0_read (V m c (Pipeline.arrRef spec0 0)) t p k r hr

theorem read_deg (c : Dev nD) (t : Fin cfg0.N) (p : Fin 5000) (r : Fin 50000) (hr : r.val = t.val * 5000 + p.val) :
    iblk m c 1 t (ix2 p (0 : Fin 1)) = V m c main_v18 (ix2 r (0 : Fin 1)) := by
  unfold iblk
  exact block1_read (V m c (Pipeline.arrRef spec0 1)) t p r hr

theorem read_x (c : Dev nD) (t : Fin cfg0.N) (p : Fin 5000) (k : Fin 128) (r : Fin 50000) (hr : r.val = t.val * 5000 + p.val) :
    iblk m c 2 t (ix2 p k) = V m c main_arg0 (ix2 r k) := by
  unfold iblk
  exact block2_read (V m c (Pipeline.arrRef spec0 2)) t p k r hr

theorem read_wl (c : Dev nD) (t : Fin cfg0.N) (k q : Fin 128) : iblk m c 3 t (ix2 k q) = V m c main_arg2 (ix2 k q) := by
  unfold iblk
  exact block3_read (V m c (Pipeline.arrRef spec0 3)) t k q

theorem read_wr (c : Dev nD) (t : Fin cfg0.N) (k q : Fin 128) : iblk m c 4 t (ix2 k q) = V m c main_arg3 (ix2 k q) := by
  unfold iblk
  exact block4_read (V m c (Pipeline.arrRef spec0 4)) t k q

theorem read_bias (c : Dev nD) (t : Fin cfg0.N) (q : Fin 128) :
    iblk m c 5 t (ix2 (0 : Fin 1) q) = V m c main_v19 (ix2 (0 : Fin 1) q) := by
  unfold iblk
  exact block5_read (V m c (Pipeline.arrRef spec0 5)) t q

/-! ## One entry of one block -/

/-- If six blocks are, where the body reads them for entry (p, q), rows of six arrays at row r, then what the body
    stores at (p, q) is the layer of those arrays at (r, q). -/
theorem entry_of_reads (A X : (⟨2, ![50000, 128]⟩ : Shape).Idx → EReal) (Dg : (⟨2, ![50000, 1]⟩ : Shape).Idx → EReal)
    (WL WR : (⟨2, ![128, 128]⟩ : Shape).Idx → EReal) (Bs : (⟨2, ![1, 128]⟩ : Shape).Idx → EReal)
    (d : Vec Ideal S5000x1 .f32) (a x : Vec Ideal S5000x128 .f32) (wl wr : Vec Ideal S128x128 .f32) (b : Vec Ideal S1x128 .f32)
    (p : Fin 5000) (q : Fin 128) (r : Fin 50000)
    (ha : ∀ k : Fin 128, a (ix2 p k) = A (ix2 r k)) (hx : ∀ k : Fin 128, x (ix2 p k) = X (ix2 r k))
    (hd : d (ix2 p (0 : Fin 1)) = Dg (ix2 r (0 : Fin 1)))
    (hwl : ∀ k : Fin 128, wl (ix2 k q) = WL (ix2 k q)) (hwr : ∀ k : Fin 128, wr (ix2 k q) = WR (ix2 k q))
    (hb : b (ix2 (0 : Fin 1) q) = Bs (ix2 (0 : Fin 1) q)) :
    k0_pay1 (F := Ideal) d a x wl wr b (ix2 p q)
      = Cert.Sage.layer A (fun i => Dg (ix2 (i 0) (0 : Fin 1))) X WL WR (fun i => Bs (ix2 (0 : Fin 1) (i 0))) (ix2 r q) := by
  rw [Cert.Sage.Block.stored_apply, Cert.Sage.layer_apply]
  unfold Cert.Sage.entry Cert.Sage.mean
  simp only [ha, hx, hd, hwl, hwr, hb]

/-! ## From the blocks to the array -/

/-- What point t writes back is block t of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  generalize hP : k0_pay1 (iblk m c 1 t) (iblk m c 0 t) (iblk m c 2 t) (iblk m c 3 t) (iblk m c 4 t) (iblk m c 5 t) = P
  generalize hG : result m c = G
  funext y
  obtain ⟨p, q, rfl⟩ : ∃ (p : Fin 5000) (q : Fin 128), y = ix2 p q := ⟨y 0, y 1, eq_ix2 y⟩
  have hN : cfg0.N = 10 := N_0
  have ht : t.val < 10 := by have h := t.isLt; omega
  obtain ⟨r, hr⟩ : ∃ r : Fin 50000, r.val = t.val * 5000 + p.val := ⟨⟨t.val * 5000 + p.val, by have := p.isLt; omega⟩, rfl⟩
  refine Eq.trans ?_ (block6_read G t p q r hr).symm
  show P (ix2 p q) = G (ix2 r q)
  subst hP
  subst hG
  unfold result degOf biasOf
  exact entry_of_reads (V m c main_v13) (V m c main_arg0) (V m c main_v18) (V m c main_arg2) (V m c main_arg3) (V m c main_v19)
    (iblk m c 1 t) (iblk m c 0 t) (iblk m c 2 t) (iblk m c 3 t) (iblk m c 4 t) (iblk m c 5 t) p q r
    (fun k => read_agg m c t p k r hr) (fun k => read_x m c t p k r hr) (read_deg m c t p r hr)
    (fun k => read_wl m c t k q) (fun k => read_wr m c t k q) (read_bias m c t q)

/-- An index of the result array is in point t's block iff its row is among rows 5000 t … 5000 t + 4999. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v20).slice (win0_6.rect t)).set ↔ _
  rw [View.set_slice_whole, Rect.mem_set_unit]
  exact Iff.rfl

/-- Every index of the result array is in the block of the point its row divided by 5000 names. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, htv⟩ : ∃ t : Fin cfg0.N, t.val = (i 0).val / 5000 :=
    ⟨⟨(i 0).val / 5000, by rw [show cfg0.N = 10 from N_0]; omega⟩, rfl⟩
  have e6 := (index_facts t).2.2.2.2.2.2.2.2.2.2.2.2
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e6.1, htv]; omega
  | ⟨1, _⟩ =>
    show win0_6.index t (1 : Fin 2) * 128 ≤ (i 1).val ∧ (i 1).val < win0_6.index t (1 : Fin 2) * 128 + 128
    rw [e6.2]; omega

/-- So the result array ends holding `result`. -/
theorem final (c : Dev nD) : (dats m 0 c).arrAt 6 cfg0.N = result m c :=
  (dats m 0 c).arrAt_eq_of_cover 6 (result m c) (fun t _ => flushed_eq m c t) covered

/-- The kernel's run, read: every weakly fair execution ends with the result array at `result`, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Sage.Kernel

end
-- ==== Proof.SageHost.lean ====
/-
  The arrays the kernel's grid finds are the reference's arrays.

  Before its grid starts, the kernel's program computes on the host, from the node features and the edge list,
  the aggregated features (the sources' feature rows gathered edge by edge and added into the destinations' rows)
  and the in-degrees (a one added into the destination's entry per edge); it then makes the in-degrees a
  one-column matrix and the bias a one-row matrix.  The reference program begins with the very same operations
  on the same two arguments, in the same order.  So the array each of the kernel's first two windows is cut from
  is, as a term of the arguments, the reference's own aggregated-features stage and (through the one-column
  cast) its own in-degree stage; and the bias window's array is the bias through the one-row cast.  Neither the
  gather nor the two additions over the edges is ever opened: the two programs' terms are the same term.
-/
import proofs.«109929_j20418274525425_1_alg».proof.Proof.Gen.KernelIdeal.Frame
import proofs.«109929_j20418274525425_1_alg».proof.Proof.Gen.ReferenceIdeal.Read
import proofs.«109929_j20418274525425_1_alg».proof.Proof.LibColumn
import Idealize.ShloMosaic.Lib.StableHlo.Run
import Idealize.ShloMosaic.Lib.ValueLayout

noncomputable section

namespace Cert.Sage.Host

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The array the first window is cut from: the reference's aggregated features of the same two arguments. -/
theorem agg_eq (c : Dev nD) :
    (V m c main_v13 : S50000x128.Idx → EReal)
      = Cert.ReferenceIdeal.Read.val_main_v13 (F := Ideal) (m ((c : Thread nD τ).loc main_arg0)) (m ((c : Thread nD τ).loc main_arg1)) := by
  dsimp only [V, hostOps0]
  after_results_simp <;> rfl

/-- The array the second window is cut from: the reference's in-degrees, as a one-column matrix. -/
theorem deg_eq (c : Dev nD) :
    (V m c main_v18 : S50000x1.Idx → EReal)
      = shapeCast S50000x1 (Cert.ReferenceIdeal.Read.val_main_v17 (F := Ideal) (m ((c : Thread nD τ).loc main_arg1))) shapeCasts_S50000_S50000x1 := by
  dsimp only [V, hostOps0]
  after_results
  rfl

/-- The array the bias window is cut from: the bias, as a one-row matrix. -/
theorem bias_eq (c : Dev nD) :
    (V m c main_v19 : S1x128.Idx → EReal) = shapeCast S1x128 (m ((c : Thread nD τ).loc main_arg4)) shapeCasts_S128_S1x128 := by
  dsimp only [V, hostOps0]
  after_results
  rfl

end Cert.Sage.Host

end
-- ==== Proof.lean ====
/-
  A mean-aggregating graph-convolution layer: the kernel and the reference compute the same extended reals.

  Both programs first form, on the host and by the same operations, the aggregated features `agg` (each node's
  incoming neighbours' feature rows added up) and the in-degrees `deg`.  The reference then computes

      relu( ( (agg / max(deg, 1)) · W_l  +  b )  +  x · W_r ),

  while the kernel, on blocks of 5000 nodes, computes

      relu( ( (agg / max(deg, 1)) · W_l  +  x · W_r )  +  b ),

  rounding the operands of its two products to half precision first.  On the extended reals a rounding is the
  identity and each product is the plain sum over the 128 contracted positions, so the two differ only in where
  the bias is added — and addition of extended reals is commutative and associative, infinities included.  Hence
  no finiteness of the inputs is used: the precondition is never opened.

  The parts: `SageSpec` states the layer as one function of (agg, deg, x, W_l, W_r, b) and the regrouping law;
  `SageReference` reads the reference's result as that function; `SageBlock` reads one entry of what the kernel's
  body stores; `SageKernel` carries the entries from the ten blocks to the whole result array; `SageHost` says
  that the arrays the kernel's grid finds are the reference's `agg`, `deg` (as a column) and `b` (as a row).
  Below, these are joined, and the five claims assembled.  The three frames are the generated ones (the
  reference's being its generated run with the result dropped); nothing was rewritten when the kernel was
  idealized, so that claim is trivial.
-/
import proofs.«109929_j20418274525425_1_alg».proof.Defs
import proofs.«109929_j20418274525425_1_alg».proof.Proof.Gen.Kernel
import proofs.«109929_j20418274525425_1_alg».proof.Proof.Gen.Kernel.Frame
import proofs.«109929_j20418274525425_1_alg».proof.Proof.Gen.KernelIdeal
import proofs.«109929_j20418274525425_1_alg».proof.Proof.Gen.KernelIdeal.Frame
import proofs.«109929_j20418274525425_1_alg».proof.Proof.Gen.ReferenceIdeal
import proofs.«109929_j20418274525425_1_alg».proof.Proof.Gen.Pre_finite_inputs
import proofs.«109929_j20418274525425_1_alg».proof.Proof.Gen.KernelIdeal.Value
import proofs.«109929_j20418274525425_1_alg».proof.Proof.Gen.ReferenceIdeal.Run
import proofs.«109929_j20418274525425_1_alg».proof.Proof.Gen.ReferenceIdeal.Read
import proofs.«109929_j20418274525425_1_alg».proof.Proof.SageSpec
import proofs.«109929_j20418274525425_1_alg».proof.Proof.SageReference
import proofs.«109929_j20418274525425_1_alg».proof.Proof.SageKernel
import proofs.«109929_j20418274525425_1_alg».proof.Proof.SageHost
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result in the reference's terms -/

section Join

open Cert.KernelIdeal Cert.KernelIdeal.Gen

variable (m : (ℓ : Loc nD τ sig) → Buf (Elt Ideal) ℓ)

/-- The in-degrees the kernel divides by are the reference's: the one-column array, entry (r, 0), is the vector at r. -/
theorem degOf_eq (c : Dev nD) :
    Cert.Sage.Kernel.degOf m c = Cert.ReferenceIdeal.Read.val_main_v17 (F := Ideal) (m ((c : Thread nD τ).loc main_arg1)) := by
  unfold Cert.Sage.Kernel.degOf
  rw [Cert.Sage.Host.deg_eq]
  generalize Cert.ReferenceIdeal.Read.val_main_v17 (F := Ideal) (m ((c : Thread nD τ).loc main_arg1)) = D
  funext i
  obtain ⟨r, rfl⟩ : ∃ r : Fin 50000, i = ix1 r := ⟨i 0, eq_ix1 i⟩
  exact Cert.Layer.Column.shapeCast_a_a1_apply D _ r 0

/-- The bias the kernel adds is the reference's: the one-row array, entry (0, q), is the vector at q. -/
theorem biasOf_eq (c : Dev nD) : Cert.Sage.Kernel.biasOf m c = m ((c : Thread nD τ).loc main_arg4) := by
  unfold Cert.Sage.Kernel.biasOf
  rw [Cert.Sage.Host.bias_eq]
  generalize m ((c : Thread nD τ).loc main_arg4) = B
  funext i
  obtain ⟨q, rfl⟩ : ∃ q : Fin 128, i = ix1 q := ⟨i 0, eq_ix1 i⟩
  exact shapeCast_a_1a_apply B _ 0 q

/-- The kernel's result is the layer of the reference's aggregated features and in-degrees and of the arguments. -/
theorem result_as_reference (c : Dev nD) :
    Cert.Sage.Kernel.result m c
      = Cert.Sage.layer
          (Cert.ReferenceIdeal.Read.val_main_v13 (F := Ideal) (m ((c : Thread nD τ).loc main_arg0)) (m ((c : Thread nD τ).loc main_arg1)))
          (Cert.ReferenceIdeal.Read.val_main_v17 (F := Ideal) (m ((c : Thread nD τ).loc main_arg1)))
          (m ((c : Thread nD τ).loc main_arg0)) (m ((c : Thread nD τ).loc main_arg2)) (m ((c : Thread nD τ).loc main_arg3))
          (m ((c : Thread nD τ).loc main_arg4)) := by
  unfold Cert.Sage.Kernel.result
  rw [degOf_eq, biasOf_eq, Cert.Sage.Host.agg_eq, V_main_arg0, V_main_arg2, V_main_arg3]

end Join

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories agreeing on the arguments, the kernel's result array ends at the layer of the arrays its grid
    finds, and the reference's result at the layer of its own stages of the same arguments: one function. -/
theorem algebraic : Cert.algebraic_KernelIdeal_ReferenceIdeal := by
  intro m ρ m' ρ' _ hagree
  refine ⟨Cert.Sage.Kernel.result m, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Sage.Reference.result_eq, (hagree c).1, (hagree c).2.1, (hagree c).2.2.1,
    (hagree c).2.2.2.1, (hagree c).2.2.2.2, result_as_reference]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
